-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S8192x8192 : Shape := ⟨2, ![8192, 8192]⟩
abbrev S2048x128 : Shape := ⟨2, ![2048, 128]⟩
abbrev S1024x128 : Shape := ⟨2, ![1024, 128]⟩
abbrev S2048x1024 : Shape := ⟨2, ![2048, 1024]⟩
abbrev S2048 : Shape := ⟨1, ![2048]⟩
abbrev S2048x1 : Shape := ⟨2, ![2048, 1]⟩
abbrev S1024 : Shape := ⟨1, ![1024]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x8192, .f32⟩
  | .local _ .vmem, ⟨0, _⟩ => ⟨S2048x128, .f32⟩
  | .local _ .vmem, ⟨1, _⟩ => ⟨S2048x128, .f32⟩
  | .local _ .vmem, ⟨2, _⟩ => ⟨S1024x128, .f32⟩
  | .local _ .vmem, ⟨3, _⟩ => ⟨S1024x128, .f32⟩
  | .local _ .vmem, ⟨4, _⟩ => ⟨S2048x1024, .f32⟩
  | .local _ .vmem, ⟨5, _⟩ => ⟨S2048x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S2048x128_S2048x128_0_0 : ∀ a, (![0, 0] : Fin 2 → Nat) a + S2048x128.size a ≤ S2048x128.size a
  h_S2048x128 : 0 < S2048x128.numel
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  reduces_S2048x128_S2048 : S2048x128.Reduces [1] S2048
  shapeCasts_S2048_S2048x1 : S2048.ShapeCasts S2048x1
  reduces_S1024x128_S1024 : S1024x128.Reduces [1] S1024
  shapeCasts_S1024_S1x1024 : S1024.ShapeCasts S1x1024
  broadcasts_S2048x1_S2048x1024 : S2048x1.Broadcasts S2048x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  dot_S2048x128_S1024x128_S2048x1024_1_1_0_0_n_n_wf : DotDims.WF S2048x128 S1024x128 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x8192.size a
  hwx0_2 : ∀ i : grid0.Coords, EltTy.bits .f32 = 32 ∨ (Rect.block (s := S8192x8192) S2048x1024.size (cc0_transform_2 i) (hinb0_2 i)).WholeWords (EltTy.packing .f32)

variable [Facts₀]

def dot_S2048x128_S1024x128_S2048x1024_1_1_0_0_n_n : DotDims S2048x128 S1024x128 S2048x1024 where
  lhsContracting := [1]
  rhsContracting := [1]
  lhsNonContracting := [0]
  rhsNonContracting := [0]
  lhsBatch := []
  rhsBatch := []
  wf := dot_S2048x128_S1024x128_S2048x1024_1_1_0_0_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x8192, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x128, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_call1_v0 : Ref sig .tc := ⟨.hbm, 7, rfl⟩
abbrev main_call1_cst : Ref sig .tc := ⟨.hbm, 8, rfl⟩
abbrev main_call1_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x128_S8192x128_S8192x8192_1_1_0_0_n_n_wf : DotDims.WF S8192x128 S8192x128 S8192x8192 [1] [1] [0] [0] [] []

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf

class Facts : Prop extends Facts₀ where

variable [Facts]
-- ==== Proof.CosineSpec.lean ====
/-
  Pairwise cosine similarity of the rows of two matrices, as one function of the two arrays.

  For x and y of shape [8192, 128], entry (n, m) of the result is
      <x_n, y_m> / max (|x_n| * |y_m|, eps),
  where <x_n, y_m> is the sum over k of x(n,k) * y(m,k), |x_n| is the square root of the sum over k of x(n,k)^2,
  and eps is the f32 word 0x322BCC77 (the float nearest 1e-8). Both programs carry that same word, so it is
  never evaluated. Everything is read on the extended reals: a sum is exact and has no order, and the square
  root, the maximum and the quotient are the extended reals' own.
-/
import Idealize.ShloMosaic.PureOps.Ideal
import Idealize.ShloMosaic.Lib.ValueIdx

noncomputable section

namespace Cert.Cosine

open Idealize.ShloMosaic Idealize.ShloMosaic.ValueIdx

/-- The inner product of row `n` of `x` with row `m` of `y`, over rows of any count. -/
def rowDot {a b : ℕ} (x : FVec Ideal ⟨2, ![a, 128]⟩ .f32) (y : FVec Ideal ⟨2, ![b, 128]⟩ .f32) (n : Fin a) (m : Fin b) : EReal :=
  ∑ k : Fin 128, x (ix2 n k) * y (ix2 m k)

/-- The length of row `n` of `x`: the square root of the sum of its squares. -/
def rowLen {a : ℕ} (x : FVec Ideal ⟨2, ![a, 128]⟩ .f32) (n : Fin a) : EReal :=
  Ideal.sqrt (∑ k : Fin 128, x (ix2 n k) * x (ix2 n k))

/-- One entry: the inner product of two rows over the larger of the product of their lengths and eps. -/
def entry {a b : ℕ} (x : FVec Ideal ⟨2, ![a, 128]⟩ .f32) (y : FVec Ideal ⟨2, ![b, 128]⟩ .f32) (n : Fin a) (m : Fin b) : EReal :=
  Ideal.div (rowDot x y n m) (max (rowLen x n * rowLen y m) (Ideal.ofBits .f32 0x322BCC77#32))

/-- An entry reads only row `n` of the first array and row `m` of the second: two pairs of arrays that agree
    on those rows, coordinate by coordinate, have the same entry. (This is how a tile's entry is the whole
    array's entry at the tile's offset.) -/
theorem entry_congr {a b a' b' : ℕ} (x : FVec Ideal ⟨2, ![a, 128]⟩ .f32) (y : FVec Ideal ⟨2, ![b, 128]⟩ .f32)
    (x' : FVec Ideal ⟨2, ![a', 128]⟩ .f32) (y' : FVec Ideal ⟨2, ![b', 128]⟩ .f32) (n : Fin a) (m : Fin b) (n' : Fin a') (m' : Fin b')
    (hx : ∀ k : Fin 128, x (ix2 n k) = x' (ix2 n' k)) (hy : ∀ k : Fin 128, y (ix2 m k) = y' (ix2 m' k)) :
    entry x y n m = entry x' y' n' m' := by
  unfold entry rowDot rowLen
  simp only [hx, hy]

/-- The whole result: entry (n, m) for every pair of rows of the two [8192, 128] arrays. -/
def sim (x y : FVec Ideal ⟨2, ![8192, 128]⟩ .f32) : FVec Ideal ⟨2, ![8192, 8192]⟩ .f32 :=
  fun i => entry x y (i 0) (i 1)

end Cert.Cosine

end
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.LibRowSum.lean ====
/-
  The sum of a row of a rank-2 array, read at the row.

  A kernel's vector reduction by addition of an `[a, b]` array along its second axis keeps one value per row.
  Over the extended reals addition is exact, so the value at row `r` is the plain sum over the row's `b` entries,
  `∑ k, src (r, k)`, whatever order the hardware adds them in (`multiReduction_add_row`).
-/
import proofs.«132996_j62053687493017_1_alg».proof.Proof.LibColumns

noncomputable section

namespace Cert.RowSum

open Idealize.ShloMosaic Idealize.ShloMosaic.ValueIdx

/-- A kernel's sum of an `[a, b]` array along its second axis, at the extended reals, read at row `r`: the sum of the
    row's `b` entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact congrArg (fun f => Finset.sum (Finset.univ : Finset (Fin b)) f)
    (funext fun k => congrArg src (Cert.Columns.lift_row h r k))

end Cert.RowSum

end
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.LibRowBroadcast.lean ====
/-
  A row broadcast down the first axis, read at an index given by coordinates.

  A row, an array of shape [1, b], broadcast along the first axis to [a, b] repeats the row in every one of the
  a rows: at (r, j) it reads the row's entry j, whatever r is. (The companion of the column form, [a, 1]
  broadcast to [a, b], which reads the column's entry r at (r, j).)
-/
import Idealize.ShloMosaic.Lib.Pipeline.Value
import Idealize.ShloMosaic.Lib.ValueIdx

noncomputable section

namespace Cert.RowBroadcast

open Idealize.ShloMosaic Idealize.ShloMosaic.ValueIdx

/-- A row `[1, b]` broadcast along the first axis to `[a, b]` reads, at `(r, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

end Cert.RowBroadcast

end
-- ==== Proof.KernelTile.lean ====
/-
  One tile of the kernel, read at an entry.

  At a grid point the kernel body holds a tile `a` of 2048 rows of the first array and a tile `b` of 1024 rows
  of the second, each row with all 128 coordinates, and stores the 2048 by 1024 tile whose entry (p, q) is
      <a_p, b_q> / max (|a_p| * |b_q|, eps).
  The inner products come from one matrix product contracting the last axis of BOTH operands (each operand's
  row index is kept, the column index is summed), into a zero accumulator, after a narrowing of the operands
  that is the identity on the extended reals. The lengths are row sums of squares under a square root: the
  first kept as a column [2048, 1] and repeated along every row, the second as a row [1, 1024] and repeated
  down every column, so that at (p, q) their product is |a_p| * |b_q|.
-/
import proofs.«132996_j62053687493017_1_alg».proof.Proof.Gen.KernelIdeal.Skeleton
import proofs.«132996_j62053687493017_1_alg».proof.Proof.CosineSpec
import proofs.«132996_j62053687493017_1_alg».proof.Proof.LibRowSum
import proofs.«132996_j62053687493017_1_alg».proof.Proof.LibRowCast
import proofs.«132996_j62053687493017_1_alg».proof.Proof.LibRowBroadcast
import Idealize.ShloMosaic.PureOps.Ideal.Laws
import Idealize.ShloMosaic.Lib.ValueIdx

noncomputable section

namespace Cert.KernelIdeal.Tile

open Cert.KernelIdeal Cert.KernelIdeal.Gen Idealize.ShloMosaic Idealize.ShloMosaic.ValueIdx

/-! ## The matrix product: both operands contracted along their last axis -/

/-- The left operand's row index at output entry `i` is `i`'s first coordinate. -/
theorem lhs_row (i : S2048x1024.Idx) (c : dot_S2048x128_S1024x128_S2048x1024_1_1_0_0_n_n.contr.Idx) :
    (dot_S2048x128_S1024x128_S2048x1024_1_1_0_0_n_n.lhsIdx i c 0).val = (i 0).val := by
  unfold DotDims.lhsIdx
  rw [dif_neg (show ¬(0 : Fin S2048x128.rank) ∈ dot_S2048x128_S1024x128_S2048x1024_1_1_0_0_n_n.lhsBatch by decide),
    dif_pos (show (0 : Fin S2048x128.rank) ∈ dot_S2048x128_S1024x128_S2048x1024_1_1_0_0_n_n.lhsNonContracting by decide)]
  rfl

/-- The right operand's row index at output entry `i` is `i`'s second coordinate. -/
theorem rhs_row (i : S2048x1024.Idx) (c : dot_S2048x128_S1024x128_S2048x1024_1_1_0_0_n_n.contr.Idx) :
    (dot_S2048x128_S1024x128_S2048x1024_1_1_0_0_n_n.rhsIdx i c 0).val = (i 1).val := by
  unfold DotDims.rhsIdx
  rw [dif_neg (show ¬(0 : Fin S1024x128.rank) ∈ dot_S2048x128_S1024x128_S2048x1024_1_1_0_0_n_n.rhsBatch by decide),
    dif_pos (show (0 : Fin S1024x128.rank) ∈ dot_S2048x128_S1024x128_S2048x1024_1_1_0_0_n_n.rhsNonContracting by decide)]
  rfl

/-- The product into a zero accumulator, at entry (p, q): the sum over the 128 shared coordinates of the left
    operand's row p times the right operand's row q. -/
theorem dots_apply {φ₁ φ₂ : FTy} (l : FVec Ideal S2048x128 φ₁) (r : FVec Ideal S1024x128 φ₂) (p : Fin 2048) (q : Fin 1024) :
    matmul dot_S2048x128_S1024x128_S2048x1024_1_1_0_0_n_n none l r (constant (F := Ideal) S2048x1024 .f32 0x00000000#32) (ix2 p q)
      = ∑ k : Fin 128, l (ix2 p k) * r (ix2 q k) := by
  simp only [matmul]
  rw [Ideal.matmul_constant_zero_apply,
    ← Equiv.sum_comp (contrEquiv1 dot_S2048x128_S1024x128_S2048x1024_1_1_0_0_n_n 128 rfl rfl).symm]
  refine Finset.sum_congr rfl fun k _ => ?_
  have hk := contrEquiv1_symm_val dot_S2048x128_S1024x128_S2048x1024_1_1_0_0_n_n 128 rfl rfl k
  have el : dot_S2048x128_S1024x128_S2048x1024_1_1_0_0_n_n.lhsIdx (ix2 p q)
      ((contrEquiv1 dot_S2048x128_S1024x128_S2048x1024_1_1_0_0_n_n 128 rfl rfl).symm k) = ix2 p k :=
    funext fun a => Fin.ext (by
      match a with
      | ⟨0, _⟩ => exact lhs_row _ _
      | ⟨1, _⟩ => exact (dot_S2048x128_S1024x128_S2048x1024_1_1_0_0_n_n.lhsIdx_val_of_single rfl _ _).trans hk)
  have er : dot_S2048x128_S1024x128_S2048x1024_1_1_0_0_n_n.rhsIdx (ix2 p q)
      ((contrEquiv1 dot_S2048x128_S1024x128_S2048x1024_1_1_0_0_n_n 128 rfl rfl).symm k) = ix2 q k :=
    funext fun a => Fin.ext (by
      match a with
      | ⟨0, _⟩ => exact rhs_row _ _
      | ⟨1, _⟩ => exact (dot_S2048x128_S1024x128_S2048x1024_1_1_0_0_n_n.rhsIdx_val_of_single rfl _ _).trans hk)
  rw [el, er]

/-! ## The two lengths -/

/-- The first tile's lengths, kept as a column: at (p, u) the length of row p. -/
theorem len_col (a : FVec Ideal S2048x128 .f32) (hr : S2048x128.Reduces [1] S2048) (hc : S2048.ShapeCasts S2048x1)
    (p : Fin 2048) (u : Fin 1) :
    sqrt (shapeCast S2048x1 (multiReduction .add [1] S2048 (mulf a a) 0x00000000#32 hr (.inl rfl) rfl) hc) (ix2 p u)
      = Cert.Cosine.rowLen a p := by
  show Ideal.sqrt (shapeCast S2048x1 (multiReduction .add [1] S2048 (mulf a a) 0x00000000#32 hr (.inl rfl) rfl) hc (ix2 p u))
    = Ideal.sqrt _
  refine congrArg Ideal.sqrt ?_
  refine (Cert.Columns.shapeCast_a_a1_apply _ hc p u).trans ?_
  exact Cert.RowSum.multiReduction_add_row (mulf a a) 0x00000000#32 hr (.inl rfl) rfl p

/-- The second tile's lengths, kept as a row: at (u, q) the length of row q. -/
theorem len_row (b : FVec Ideal S1024x128 .f32) (hr : S1024x128.Reduces [1] S1024) (hc : S1024.ShapeCasts S1x1024)
    (u : Fin 1) (q : Fin 1024) :
    shapeCast S1x1024 (sqrt (multiReduction .add [1] S1024 (mulf b b) 0x00000000#32 hr (.inl rfl) rfl)) hc (ix2 u q)
      = Cert.Cosine.rowLen b q := by
  refine (Cert.RowCast.shapeCast_row_apply _ hc u q).trans ?_
  show Ideal.sqrt (multiReduction .add [1] S1024 (mulf b b) 0x00000000#32 hr (.inl rfl) rfl (ix1 q)) = Ideal.sqrt _
  refine congrArg Ideal.sqrt ?_
  exact Cert.RowSum.multiReduction_add_row (mulf b b) 0x00000000#32 hr (.inl rfl) rfl q

/-! ## The stored tile at an entry -/

/-- Entry (p, q) of the tile the body stores is the cosine similarity of row p of the first tile and row q of
    the second. -/
theorem tile_apply (a : Vec Ideal S2048x128 .f32) (b : Vec Ideal S1024x128 .f32) (p : Fin 2048) (q : Fin 1024) :
    k0_pay1 (F := Ideal) a b (ix2 p q) = Cert.Cosine.entry a b p q := by
  unfold k0_pay1
  dsimp only
  rw [divf_apply, maximumf_apply, mulf_apply, broadcast_apply, dots_apply,
    Cert.Columns.broadcastTo_a1_ab_apply, Cert.RowBroadcast.broadcastTo_1b_ab_apply, len_col, len_row]
  rfl

end Cert.KernelIdeal.Tile

end
-- ==== Proof.TileToArray.lean ====
/-
  From tiles to the whole array.

  The grid has 4 x 8 points; point (i, j) holds rows 2048 i .. 2048 i + 2047 of the first array, rows
  1024 j .. 1024 j + 1023 of the second, and writes back the 2048 x 1024 tile of the result at block (i, j).
  An entry of the similarity reads one row of each array, and row p of a tile IS row 2048 i + p of the array
  (all 128 coordinates: the arrays' second axis is never split), so what a point writes back is exactly its tile
  of the one whole-array function. The 32 tiles fill the 8192 x 8192 result: entry (n, m) lies in the tile of
  point (n / 2048, m / 1024). Hence the result array after the run is the similarity of the two argument arrays.
-/
import proofs.«132996_j62053687493017_1_alg».proof.Proof.Gen.KernelIdeal.Value
import proofs.«132996_j62053687493017_1_alg».proof.Proof.KernelTile
import proofs.«132996_j62053687493017_1_alg».proof.Proof.CosineSpec
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's rectangles start at the origin. -/
theorem origin : (![0, 0] : Fin 2 → Nat) = fun _ => 0 := funext fun a => by fin_cases a <;> rfl

/-- The stored tile at any index of its shape: the similarity entry of the index's two coordinates. -/
theorem tile_at (a : Vec Ideal S2048x128 .f32) (b : Vec Ideal S1024x128 .f32) (j : S2048x1024.Idx) :
    k0_pay1 (F := Ideal) a b j = Cert.Cosine.entry a b (j 0) (j 1) :=
  (congrArg (k0_pay1 (F := Ideal) a b) (eq_ix2 j)).trans (Tile.tile_apply a b (j 0) (j 1))

/-- The three index maps over the 32 grid points: the first array's block row is the result's block row, the
    second array's block row is the result's block column, neither input is split along its second axis, and
    the result's block indices stay below 4 and 8. -/
theorem block_index : ∀ t : Fin cfg0.N,
    win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 3
    ∧ win0_2.index t (1 : Fin 2) ≤ 7 :=
  (by decide +kernel : ∀ t : Fin grid0.N, _)

/-- Every block (i, j) with i below 4 and j below 8 is some grid point's. -/
theorem block_onto : ∀ (q0 : Fin 4) (q1 : Fin 8), ∃ t : Fin cfg0.N, win0_2.index t = ![q0.val, q1.val] :=
  (by decide +kernel : ∀ (q0 : Fin 4) (q1 : Fin 8), ∃ t : Fin grid0.N, win0_2.index t = ![q0.val, q1.val])

/-- What grid point `t` writes back is its tile of the similarity of the two argument arrays. -/
theorem tile_written (c : Dev nD) (t : Fin cfg0.N) :
    (dats m 0 c).flushed 2 t
      = ((cfg0.win 2).blk t).view.read (Elt Ideal)
          (Cert.Cosine.sim (m ((c : Thread nD τ).loc main_arg0)) (m ((c : Thread nD τ).loc main_arg1))) := by
  rw [Value.flushed2]
  unfold out0_2
  rw [View.canon_unit_zero origin]
  simp only [View.ld_unit_zero (S := S2048x128) origin, View.ld_unit_zero (S := S1024x128) origin]
  obtain ⟨e0, e1, e2, e3, -, -⟩ := block_index t
  funext j
  show k0_pay1 (F := Ideal) (iblk m c 0 t) (iblk m c 1 t) j
    = Cert.Cosine.entry (a := 8192) (b := 8192) (V m c main_arg0) (V m c main_arg1)
        ((((cfg0.win 2).blk t).view.emb j) 0) ((((cfg0.win 2).blk t).view.emb j) 1)
  refine (tile_at (iblk m c 0 t) (iblk m c 1 t) j).trans ?_
  refine Cert.Cosine.entry_congr (a := 2048) (b := 1024) (a' := 8192) (b' := 8192) _ _ _ _ _ _ _ _ (fun k => ?_) (fun k => ?_)
  · show V m c main_arg0 (((cfg0.win 0).blk t).view.emb (ix2 (j 0) k)) = V m c main_arg0 (ix2 _ k)
    refine congrArg _ (funext fun a => Fin.ext ?_)
    match a with
    | ⟨0, _⟩ =>
      show win0_0.index t (0 : Fin 2) * 2048 + 1 * (j 0).val = win0_2.index t (0 : Fin 2) * 2048 + 1 * (j 0).val
      omega
    | ⟨1, _⟩ =>
      show win0_0.index t (1 : Fin 2) * 128 + 1 * k.val = k.val
      omega
  · show V m c main_arg1 (((cfg0.win 1).blk t).view.emb (ix2 (j 1) k)) = V m c main_arg1 (ix2 _ k)
    refine congrArg _ (funext fun a => Fin.ext ?_)
    match a with
    | ⟨0, _⟩ =>
      show win0_1.index t (0 : Fin 2) * 1024 + 1 * (j 1).val = win0_2.index t (1 : Fin 2) * 1024 + 1 * (j 1).val
      omega
    | ⟨1, _⟩ =>
      show win0_1.index t (1 : Fin 2) * 128 + 1 * k.val = k.val
      omega

/-- An index of the result lies in point `t`'s tile iff each coordinate lies in the tile's range on its axis. -/
theorem mem_tile (t : Fin cfg0.N) (i : S8192x8192.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v0).slice (win0_2.rect t)).set ↔ _
  rw [View.set_slice_whole, Rect.mem_set_unit]
  exact Iff.rfl

/-- The tiles fill the result: entry (n, m) lies in the tile of block (n / 2048, m / 1024). -/
theorem tiles_cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := block_onto ⟨(i 0).val / 2048, by omega⟩ ⟨(i 1).val / 1024, by omega⟩
  have q0 : win0_2.index t (0 : Fin 2) = (i 0).val / 2048 := congrFun ht 0
  have q1 : win0_2.index t (1 : Fin 2) = (i 1).val / 1024 := congrFun ht 1
  refine ⟨t, flush0_2 t, ?_⟩
  rw [mem_tile]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 1024 ≤ (i 1).val ∧ (i 1).val < win0_2.index t (1 : Fin 2) * 1024 + 1024
    omega

/-- The result array after the run is the similarity of the two argument arrays. -/
theorem array_eq (c : Dev nD) :
    (dats m 0 c).arrAt 2 cfg0.N
      = Cert.Cosine.sim (m ((c : Thread nD τ).loc main_arg0)) (m ((c : Thread nD τ).loc main_arg1)) :=
  (dats m 0 c).arrAt_eq_of_cover 2 _ (fun t _ => tile_written m c t) tiles_cover

/-- Every weakly fair execution of the kernel's program terminates with the result array at the similarity of
    the argument arrays and the arguments unchanged. -/
theorem run : θ_run defs (onTc (τ := τ) (main (F := Ideal))) ⟨m, fun _ => 0, ρ⟩ fun r => ∀ c : Dev nD,
      r.2.mem ((c : Thread nD τ).loc main_v0)
        = Cert.Cosine.sim (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array_eq m c), (h c).2⟩) (Value.run_blocks m ρ)

end Cert.KernelIdeal.Whole

end
-- ==== Proof.RefCosine.lean ====
/-
  The reference program computes the cosine similarity function.

  The reference forms all inner products by one contraction of the two arrays along their last axis, the row
  lengths by a sum of squares from a zero initial value under a square root, spreads the first array's lengths
  down a column and the second's along a row, multiplies, takes the maximum with eps and divides. Read at an
  entry (n, m), every layout step only renames the index: the column and the row read row n of the first array
  and row m of the second. The zero initial value of each sum is the extended real 0 and drops out.
-/
import proofs.«132996_j62053687493017_1_alg».proof.Proof.Gen.ReferenceIdeal.Read
import proofs.«132996_j62053687493017_1_alg».proof.Proof.CosineSpec

noncomputable section

namespace Cert.ReferenceIdeal.RefValue

open Cert.ReferenceIdeal Cert.ReferenceIdeal.Read Idealize.ShloMosaic Idealize.ShloMosaic.ValueIdx

/-- The result's stage, as a function of the two argument arrays, is the cosine similarity of their rows. -/
theorem result_eq (x y : FVec Ideal S8192x128 .f32) : val_main_v10 (F := Ideal) x y = Cert.Cosine.sim x y := by
  funext i
  -- where each layout step sends the entry's index: rows (i 0) and (i 1), coordinate k
  have eL : ∀ k : Fin 128, lidx_main_v0 i k = ix2 (i 0) k := fun k =>
    funext fun a => by match a with | ⟨0, _⟩ => rfl | ⟨1, _⟩ => rfl
  have eR : ∀ k : Fin 128, ridx_main_v0 i k = ix2 (i 1) k := fun k =>
    funext fun a => by match a with | ⟨0, _⟩ => rfl | ⟨1, _⟩ => rfl
  have eX : ∀ k : Fin 128, idx_main_call0_v1 (idx_main_v3 (idx_main_v5 i)) k = ix2 (i 0) k := fun k =>
    funext fun a => by match a with | ⟨0, _⟩ => rfl | ⟨1, _⟩ => rfl
  have eY : ∀ k : Fin 128, idx_main_call1_v1 (idx_main_v4 (idx_main_v6 i)) k = ix2 (i 1) k := fun k =>
    funext fun a => by match a with | ⟨0, _⟩ => rfl | ⟨1, _⟩ => rfl
  rw [val_main_v10_apply, val_main_v0_apply, val_main_v9_apply, val_main_v7_apply, val_main_v8_apply,
    val_main_v5_apply, val_main_v3_apply, val_main_v1_apply, val_main_call0_v1_apply,
    val_main_v6_apply, val_main_v4_apply, val_main_v2_apply, val_main_call1_v1_apply]
  simp only [val_main_call0_v0_apply, val_main_call1_v0_apply, val_main_call0_cst_apply, val_main_call1_cst_apply,
    val_main_cst_apply, eL, eR, eX, eY, Ideal.hostDivf_def, Ideal.maximumf_def, Ideal.mulf_def,
    Ideal.hostUnary_sqrt_def, Ideal.ofBits_def, Ideal.ofBits_zero_f32, zero_add]
  rfl

end Cert.ReferenceIdeal.RefValue

end
-- ==== Proof.lean ====
/-
  Pairwise cosine similarity: a tiled kernel against a whole-array reference, equal on the extended reals.

  Both programs take x, y of shape [8192, 128] and produce the [8192, 8192] array whose entry (n, m) is
      <x_n, y_m> / max (|x_n| * |y_m|, eps),        eps the f32 word 0x322BCC77 in both.
  The kernel walks a 4 x 8 grid: at point (i, j) it holds 2048 rows of x and 1024 rows of y with all their 128
  coordinates, forms the inner products by one matrix product contracting the last axis of both tiles (after a
  narrowing that is the identity on the extended reals), the lengths by row sums of squares under a square root,
  and stores the 2048 x 1024 tile. The reference does the same on the whole arrays in one contraction.
  An entry reads one row of each array and no row is split between tiles, so each tile the kernel writes is
  that tile of the one whole-array function (Proof/KernelTile.lean, Proof/TileToArray.lean); the reference's
  composed term is the same function, its layout steps only renaming the index and its zero initial values
  dropping out of the sums (Proof/RefCosine.lean). No law of arithmetic beyond 0 + s = s is used, so the
  finiteness of the inputs is never opened. The ideal pass rewrote nothing, so the kernel's idealization is its
  own text and `preserves` has nothing to state.
-/
import proofs.«132996_j62053687493017_1_alg».proof.Defs
import proofs.«132996_j62053687493017_1_alg».proof.Proof.Gen.Kernel
import proofs.«132996_j62053687493017_1_alg».proof.Proof.Gen.Kernel.Skeleton
import proofs.«132996_j62053687493017_1_alg».proof.Proof.Gen.Kernel.Launch
import proofs.«132996_j62053687493017_1_alg».proof.Proof.Gen.Kernel.Points
import proofs.«132996_j62053687493017_1_alg».proof.Proof.Gen.Kernel.Frame
import proofs.«132996_j62053687493017_1_alg».proof.Proof.Gen.KernelIdeal
import proofs.«132996_j62053687493017_1_alg».proof.Proof.Gen.KernelIdeal.Skeleton
import proofs.«132996_j62053687493017_1_alg».proof.Proof.Gen.KernelIdeal.Launch
import proofs.«132996_j62053687493017_1_alg».proof.Proof.Gen.KernelIdeal.Points
import proofs.«132996_j62053687493017_1_alg».proof.Proof.Gen.KernelIdeal.Frame
import proofs.«132996_j62053687493017_1_alg».proof.Proof.Gen.KernelIdeal.Value
import proofs.«132996_j62053687493017_1_alg».proof.Proof.Gen.ReferenceIdeal
import proofs.«132996_j62053687493017_1_alg».proof.Proof.Gen.ReferenceIdeal.Run
import proofs.«132996_j62053687493017_1_alg».proof.Proof.Gen.ReferenceIdeal.Read
import proofs.«132996_j62053687493017_1_alg».proof.Proof.Gen.Pre_finite_inputs
import proofs.«132996_j62053687493017_1_alg».proof.Proof.TileToArray
import proofs.«132996_j62053687493017_1_alg».proof.Proof.RefCosine
import Idealize.ShloMosaic.Adequacy
import Idealize.ShloMosaic.Init

noncomputable section

namespace Cert.Proof

open Idealize.ShloMosaic Idealize.ShloMosaic.TcCoe Idealize.SL.Sem

/-- The kernel as printed terminates without a fault and leaves its two argument arrays as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel: nothing to state. -/
theorem preserves : Cert.preserves_Kernel_KernelIdeal := trivial

/-- From memories that agree on the two arguments, the kernel's result array and the reference's both end at the
    cosine similarity of the arguments' rows: the kernel's tile by tile, the reference's by its composed term. -/
theorem algebraic : Cert.algebraic_KernelIdeal_ReferenceIdeal := by
  intro m ρ m' ρ' _ hagree
  refine ⟨fun c => Cert.Cosine.sim (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
